-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024x1024x1 : Shape := ⟨4, ![16, 1024, 1024, 1]⟩
abbrev S_ : Shape := ⟨0, ![]⟩

class Facts : Prop where
  bcast_S_S16x1024x1024x1 : S_.BroadcastsInDim S16x1024x1024x1 (![] : Fin 0 → Fin S16x1024x1024x1.rank)
  reducesTo_S16x1024x1024x1_S_d0_1_2_3 : S16x1024x1024x1.ReducesTo [0, 1, 2, 3] S_
  h_S_ : 0 < S_.numel

variable [Facts]

def fn {F : FTy → Type} [FloatOps F] (main_arg0 : FVec F S16x1024x1024x1 .f32) : IVec S_ 1 :=
  let main_v0 : FVec F S16x1024x1024x1 .f32 := Host.absf main_arg0
  let main_cst : FVec F S_ .f32 := constant S_ .f32 0x7F800000#32
  let main_v1 : FVec F S16x1024x1024x1 .f32 := broadcastInDim S16x1024x1024x1 ![] bcast_S_S16x1024x1024x1 main_cst
  let main_v2 : IVec S16x1024x1024x1 1 := cmpf .olt main_v0 main_v1
  let main_c : IVec S_ 1 := constantI S_ 1 1#1
  let main_v3 : IVec S_ 1 := (fun x v => Host.reduce IntOp.andi x v reducesTo_S16x1024x1024x1_S_d0_1_2_3 h_S_) main_v2 main_c
  main_v3
-- ==== Kernel.lean ====
abbrev S16x1024x1024x1 : Shape := ⟨4, ![16, 1024, 1024, 1]⟩
abbrev S1x1024x1024x1 : Shape := ⟨4, ![1, 1024, 1024, 1]⟩
abbrev S1024x1032 : Shape := ⟨2, ![1024, 1032]⟩
abbrev S1032x1024 : Shape := ⟨2, ![1032, 1024]⟩
abbrev S1024x1024 : Shape := ⟨2, ![1024, 1024]⟩
abbrev S1024x4 : Shape := ⟨2, ![1024, 4]⟩
abbrev S4x1024 : Shape := ⟨2, ![4, 1024]⟩

abbrev nBuf : Space → Nat
  | .hbm => 2
  | .vmem => 6
  | .smem => 0
  | _ => 0

abbrev bufTy : (tb : Table) → Fin (tcTables nBuf tb) → BufTy
  | .hbm, ⟨0, _⟩ => ⟨S16x1024x1024x1, .f32⟩
  | .hbm, ⟨1, _⟩ => ⟨S16x1024x1024x1, .f32⟩
  | .local _ .vmem, ⟨0, _⟩ => ⟨S1x1024x1024x1, .f32⟩
  | .local _ .vmem, ⟨1, _⟩ => ⟨S1x1024x1024x1, .f32⟩
  | .local _ .vmem, ⟨2, _⟩ => ⟨S1x1024x1024x1, .f32⟩
  | .local _ .vmem, ⟨3, _⟩ => ⟨S1x1024x1024x1, .f32⟩
  | .local _ .vmem, ⟨4, _⟩ => ⟨S1024x1032, .f32⟩
  | .local _ .vmem, ⟨5, _⟩ => ⟨S1032x1024, .f32⟩
  | _, _ => ⟨S16x1024x1024x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x1024x1024x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S1x1024x1024x1_S1x1024x1024x1_0_0_0_0 : ∀ a, (![0, 0, 0, 0] : Fin 4 → Nat) a + S1x1024x1024x1.size a ≤ S1x1024x1024x1.size a
  h_S1x1024x1024x1 : 0 < S1x1024x1024x1.numel
  shapeCasts_S1x1024x1024x1_S1024x1024 : S1x1024x1024x1.ShapeCasts S1024x1024
  inb_S1024x1032_S1024x4_0_0 : ∀ a, (![0, 0] : Fin 2 → Nat) a + S1024x4.size a ≤ S1024x1032.size a
  h_S1024x4 : 0 < S1024x4.numel
  shapeCasts_S1024x4_S1024x4 : S1024x4.ShapeCasts S1024x4
  inb_S1024x1032_S1024x4_0_1028 : ∀ a, (![0, 1028] : Fin 2 → Nat) a + S1024x4.size a ≤ S1024x1032.size a
  inb_S1024x1032_S1024x1024_0_4 : ∀ a, (![0, 4] : Fin 2 → Nat) a + S1024x1024.size a ≤ S1024x1032.size a
  h_S1024x1024 : 0 < S1024x1024.numel
  shapeCasts_S1024x1024_S1024x1024 : S1024x1024.ShapeCasts S1024x1024
  inb_S1024x1032_S1024x1024_0_0 : ∀ a, (![0, 0] : Fin 2 → Nat) a + S1024x1024.size a ≤ S1024x1032.size a
  inb_S1024x1032_S1024x1024_0_1 : ∀ a, (![0, 1] : Fin 2 → Nat) a + S1024x1024.size a ≤ S1024x1032.size a
  inb_S1024x1032_S1024x1024_0_2 : ∀ a, (![0, 2] : Fin 2 → Nat) a + S1024x1024.size a ≤ S1024x1032.size a
  inb_S1024x1032_S1024x1024_0_3 : ∀ a, (![0, 3] : Fin 2 → Nat) a + S1024x1024.size a ≤ S1024x1032.size a
  inb_S1024x1032_S1024x1024_0_5 : ∀ a, (![0, 5] : Fin 2 → Nat) a + S1024x1024.size a ≤ S1024x1032.size a
  inb_S1024x1032_S1024x1024_0_6 : ∀ a, (![0, 6] : Fin 2 → Nat) a + S1024x1024.size a ≤ S1024x1032.size a
  inb_S1024x1032_S1024x1024_0_7 : ∀ a, (![0, 7] : Fin 2 → Nat) a + S1024x1024.size a ≤ S1024x1032.size a
  inb_S1024x1032_S1024x1024_0_8 : ∀ a, (![0, 8] : Fin 2 → Nat) a + S1024x1024.size a ≤ S1024x1032.size a
  inb_S1032x1024_S4x1024_0_0 : ∀ a, (![0, 0] : Fin 2 → Nat) a + S4x1024.size a ≤ S1032x1024.size a
  h_S4x1024 : 0 < S4x1024.numel
  shapeCasts_S4x1024_S4x1024 : S4x1024.ShapeCasts S4x1024
  inb_S1032x1024_S4x1024_1028_0 : ∀ a, (![1028, 0] : Fin 2 → Nat) a + S4x1024.size a ≤ S1032x1024.size a
  inb_S1032x1024_S1024x1024_4_0 : ∀ a, (![4, 0] : Fin 2 → Nat) a + S1024x1024.size a ≤ S1032x1024.size a
  inb_S1032x1024_S1024x1024_0_0 : ∀ a, (![0, 0] : Fin 2 → Nat) a + S1024x1024.size a ≤ S1032x1024.size a
  inb_S1032x1024_S1024x1024_1_0 : ∀ a, (![1, 0] : Fin 2 → Nat) a + S1024x1024.size a ≤ S1032x1024.size a
  inb_S1032x1024_S1024x1024_2_0 : ∀ a, (![2, 0] : Fin 2 → Nat) a + S1024x1024.size a ≤ S1032x1024.size a
  inb_S1032x1024_S1024x1024_3_0 : ∀ a, (![3, 0] : Fin 2 → Nat) a + S1024x1024.size a ≤ S1032x1024.size a
  inb_S1032x1024_S1024x1024_5_0 : ∀ a, (![5, 0] : Fin 2 → Nat) a + S1024x1024.size a ≤ S1032x1024.size a
  inb_S1032x1024_S1024x1024_6_0 : ∀ a, (![6, 0] : Fin 2 → Nat) a + S1024x1024.size a ≤ S1032x1024.size a
  inb_S1032x1024_S1024x1024_7_0 : ∀ a, (![7, 0] : Fin 2 → Nat) a + S1024x1024.size a ≤ S1032x1024.size a
  inb_S1032x1024_S1024x1024_8_0 : ∀ a, (![8, 0] : Fin 2 → Nat) a + S1024x1024.size a ≤ S1032x1024.size a
  shapeCasts_S1024x1024_S1x1024x1024x1 : S1024x1024.ShapeCasts S1x1024x1024x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024x1.size a ≤ S16x1024x1024x1.size a
  hwx0_0 : ∀ i : grid0.Coords, EltTy.bits .f32 = 32 ∨ (Rect.block (s := S16x1024x1024x1) S1x1024x1024x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024x1.size a ≤ S16x1024x1024x1.size a
  hwx0_1 : ∀ i : grid0.Coords, EltTy.bits .f32 = 32 ∨ (Rect.block (s := S16x1024x1024x1) S1x1024x1024x1.size (cc0_transform_1 i) (hinb0_1 i)).WholeWords (EltTy.packing .f32)

variable [Facts₀]

abbrev win0_0 : Pipeline.Window sig grid0 :=
  Pipeline.Window.ofSpec (Memref.whole main_arg0) S1x1024x1024x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1024x1024x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16x1024x1024x1 : Shape := ⟨4, ![16, 1024, 1024, 1]⟩
abbrev S_ : Shape := ⟨0, ![]⟩

abbrev nBuf : Space → Nat
  | .hbm => 4
  | .vmem => 0
  | .smem => 0
  | _ => 0

abbrev bufTy : (tb : Table) → Fin (tcTables nBuf tb) → BufTy
  | .hbm, ⟨0, _⟩ => ⟨S16x1024x1024x1, .f32⟩
  | .hbm, ⟨1, _⟩ => ⟨S_, .f32⟩
  | .hbm, ⟨2, _⟩ => ⟨S_, .f32⟩
  | .hbm, ⟨3, _⟩ => ⟨S16x1024x1024x1, .f32⟩
  | _, _ => ⟨S16x1024x1024x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  bcast_S_S_ : S_.BroadcastsInDim S_ (![] : Fin 0 → Fin S_.rank)
  reduceWindows_S16x1024x1024x1_S16x1024x1024x1_w1s1p0_0_w9s1p4_4_w9s1p4_4_w1s1p0_0 : S16x1024x1024x1.ReduceWindows (![1, 9, 9, 1] : Fin 4 → Nat) ![1, 1, 1, 1] ![0, 4, 4, 0] ![0, 4, 4, 0] S16x1024x1024x1
  h_S_ : 0 < S_.numel

variable [Facts₀]

class Facts : Prop extends Facts₀ where

variable [Facts]
-- ==== Proof.KernelBlock.lean ====
/-
  What the dilation kernel's body leaves in its output block, as one term of the input block `x0`, at any
  float instance. The body works through two buffers of its own. Into the first, 1024 x 1032, it writes the
  image at columns 4 … 1027 and -inf at columns 0 … 3 and 1028 … 1031, and then reads it back nine times, at column
  offsets 0 … 8: the maximum of the nine reads is the pass along the rows. Into the second, 1032 x 1024, it writes
  that result at rows 4 … 1027 and -inf at rows 0 … 3 and 1028 … 1031, and reads it back at row offsets 0 … 8: the
  maximum of those nine reads is the output. A read after the writes sees, at each index, the payload of the
  write that covers it; the three writes into each buffer cover it without overlap.
-/
import proofs.«112363_j11450382811764_1_alg».proof.Proof.Gen.KernelIdeal.Frame
import Idealize.ShloMosaic.Lib.Pipeline.Value

set_option maxRecDepth 16384

noncomputable section

namespace Cert.KernelIdeal.Dilate

open Cert.KernelIdeal Cert.KernelIdeal.Gen
open Idealize.ShloMosaic Idealize.ShloMosaic.TcCoe Idealize.ShloMosaic.Tactic Idealize.SL.Sem

variable {F : FTy → Type} [FloatOps F]

/-- The three writes into the 1024 x 1032 buffer, the last first: the image at column 4, -inf in the four
    columns behind it, -inf in the four columns in front. -/
def rowPieces (x0 : Vec F S1x1024x1024x1 .f32) : List (View.Piece (Elt F) S1024x1032 .f32) :=
  [⟨Rect.unit ![0, 4] S1024x1024.size inb_S1024x1032_S1024x1024_0_4, k0_pay4 x0⟩,
   ⟨Rect.unit ![0, 1028] S1024x4.size inb_S1024x1032_S1024x4_0_1028, k0_pay3⟩,
   ⟨Rect.unit ![0, 0] S1024x4.size inb_S1024x1032_S1024x4_0_0, k0_pay2⟩]

/-- The read of 1024 columns of that buffer from column `k`. -/
def rowLoad (x0 : Vec F S1x1024x1024x1 .f32) (k : ℕ)
    (inb : ∀ a, (![0, k] : Fin 2 → ℕ) a + S1024x1024.size a ≤ S1024x1032.size a) : Vec F S1024x1024 .f32 :=
  fun j => View.canon (rowPieces x0) ((Rect.unit (s := S1024x1032) ![0, k] S1024x1024.size inb).toLoadRect.idx j)

/-- The pass along the rows: the maximum of the nine reads. -/
def rowPass (x0 : Vec F S1x1024x1024x1 .f32) : FVec F S1024x1024 .f32 :=
  k0_pay8 (k0_pay5
      (rowLoad x0 0 inb_S1024x1032_S1024x1024_0_0)
      (rowLoad x0 1 inb_S1024x1032_S1024x1024_0_1)
      (rowLoad x0 2 inb_S1024x1032_S1024x1024_0_2)
      (rowLoad x0 3 inb_S1024x1032_S1024x1024_0_3)
      (rowLoad x0 4 inb_S1024x1032_S1024x1024_0_4)
      (rowLoad x0 5 inb_S1024x1032_S1024x1024_0_5)
      (rowLoad x0 6 inb_S1024x1032_S1024x1024_0_6)
      (rowLoad x0 7 inb_S1024x1032_S1024x1024_0_7))
    (rowLoad x0 8 inb_S1024x1032_S1024x1024_0_8)

/-- The three writes into the 1032 x 1024 buffer, the last first: the row pass at row 4, -inf in the four rows
    below it, -inf in the four rows above. -/
def colPieces (x0 : Vec F S1x1024x1024x1 .f32) : List (View.Piece (Elt F) S1032x1024 .f32) :=
  [⟨Rect.unit ![4, 0] S1024x1024.size inb_S1032x1024_S1024x1024_4_0, rowPass x0⟩,
   ⟨Rect.unit ![1028, 0] S4x1024.size inb_S1032x1024_S4x1024_1028_0, k0_pay7⟩,
   ⟨Rect.unit ![0, 0] S4x1024.size inb_S1032x1024_S4x1024_0_0, k0_pay6⟩]

/-- The read of 1024 rows of that buffer from row `k`. -/
def colLoad (x0 : Vec F S1x1024x1024x1 .f32) (k : ℕ)
    (inb : ∀ a, (![k, 0] : Fin 2 → ℕ) a + S1024x1024.size a ≤ S1032x1024.size a) : Vec F S1024x1024 .f32 :=
  fun j => View.canon (colPieces x0) ((Rect.unit (s := S1032x1024) ![k, 0] S1024x1024.size inb).toLoadRect.idx j)

/-- The output block: the maximum of the nine reads down the columns, laid back into the block's shape. -/
def block (x0 : Vec F S1x1024x1024x1 .f32) : FVec F S1x1024x1024x1 .f32 :=
  k0_pay1 (k0_pay9
      (colLoad x0 0 inb_S1032x1024_S1024x1024_0_0)
      (colLoad x0 1 inb_S1032x1024_S1024x1024_1_0)
      (colLoad x0 2 inb_S1032x1024_S1024x1024_2_0)
      (colLoad x0 3 inb_S1032x1024_S1024x1024_3_0)
      (colLoad x0 4 inb_S1032x1024_S1024x1024_4_0)
      (colLoad x0 5 inb_S1032x1024_S1024x1024_5_0)
      (colLoad x0 6 inb_S1032x1024_S1024x1024_6_0)
      (colLoad x0 7 inb_S1032x1024_S1024x1024_7_0))
    (colLoad x0 8 inb_S1032x1024_S1024x1024_8_0)

theorem zeros4 : (![0, 0, 0, 0] : Fin 4 → ℕ) = fun _ => 0 := by
  funext a; fin_cases a <;> rfl

/-- What the body's run leaves in the output's staging buffer is that term of the input block. -/
theorem out_eq_block (c : Dev nD) (i : grid0.Coords) (arg1 : Memref sig .tc .vmem S1x1024x1024x1 .f32) (harg1 : arg1.IsWhole) (arg2 : Memref sig .tc .vmem S1x1024x1024x1 .f32) (harg2 : arg2.IsWhole) (arg3 : Memref sig .tc .vmem S1024x1032 .f32) (harg3 : arg3.IsWhole) (arg4 : Memref sig .tc .vmem S1032x1024 .f32) (harg4 : arg4.IsWhole)
    (x0 : Vec F S1x1024x1024x1 .f32) :
    out0_A_1 c i arg1 harg1 arg2 harg2 arg3 harg3 arg4 harg4 x0 = block x0 := by
  unfold out0_A_1
  rw [View.read_writes_eq_canon _ _ _ (cover0_A_1 c i arg1 harg1 arg2 harg2 arg3 harg3 arg4 harg4 x0)]
  unfold kernelRun0_A
  dsimp only
  sl_unfold_words
  rw [View.canon_unit_zero (S := S1x1024x1024x1) zeros4]
  simp only [View.readCov_eq_canon', View.readAt_eq_ld, harg1.read_unread, View.ld_unit_zero (S := S1x1024x1024x1) zeros4]
  rfl

end Cert.KernelIdeal.Dilate

end
-- ==== Proof.WindowMax.lean ====
/-
  The sliding maximum over nine consecutive positions of a line whose ends are extended by four places of
  the bottom element, in a linear order with a bottom: the one-dimensional pass, the 9 x 9 window of an
  image as the pass along the rows followed by the pass along the columns, and the same window as ONE fold of
  `max` from the bottom over any list that enumerates the 81 offsets. Everything is compared through upper
  bounds: two elements with the same upper bounds are equal, a maximum lies below `z` when both its arguments
  do, and the bottom lies below everything — so neither the order nor the grouping of the maxima matters,
  and nothing is asked of the entries themselves (on the extended reals they may be infinite). Last, the result
  for a batch of sixteen images, the term both programs' runs are stated with.
-/
import Idealize.ShloMosaic.PureOps.Ideal
import Idealize.ShloMosaic.Lib.ValueIdx

namespace Cert.WindowMax

variable {α : Type*} [LinearOrder α] [OrderBot α]

/-! ## Nine values, and a fold -/

/-- The maximum of nine values as a chain of eight pairwise maxima grouped to the left. -/
def max9 (a : Fin 9 → α) : α :=
  max (max (max (max (max (max (max (max (a 0) (a 1)) (a 2)) (a 3)) (a 4)) (a 5)) (a 6)) (a 7)) (a 8)

/-- It lies below `z` exactly when each of the nine does. -/
theorem max9_le_iff (a : Fin 9 → α) (z : α) : max9 a ≤ z ↔ ∀ k, a k ≤ z := by
  unfold max9
  simp only [max_le_iff]
  constructor
  · rintro ⟨⟨⟨⟨⟨⟨⟨⟨h0, h1⟩, h2⟩, h3⟩, h4⟩, h5⟩, h6⟩, h7⟩, h8⟩ k
    fin_cases k
    exacts [h0, h1, h2, h3, h4, h5, h6, h7, h8]
  · intro h
    exact ⟨⟨⟨⟨⟨⟨⟨⟨h 0, h 1⟩, h 2⟩, h 3⟩, h 4⟩, h 5⟩, h 6⟩, h 7⟩, h 8⟩

/-- A left fold of `max` over a list lies below `z` exactly when its start and every term do. -/
theorem foldl_max_le_iff {ι : Type*} (g : ι → α) (l : List ι) (a z : α) :
    l.foldl (fun r k => max r (g k)) a ≤ z ↔ a ≤ z ∧ ∀ k ∈ l, g k ≤ z := by
  induction l generalizing a with
  | nil => simp
  | cons k l ih =>
    rw [List.foldl_cons, ih, max_le_iff]
    simp only [List.mem_cons, forall_eq_or_imp, and_assoc]

/-! ## A line extended by four places of the bottom at either end -/

/-- Position `k` of the extended line: entry `k - 4` of the line when that exists, the bottom otherwise. -/
def pad4 {n : ℕ} (x : Fin n → α) (k : ℕ) : α :=
  if h : 4 ≤ k ∧ k - 4 < n then x ⟨k - 4, h.2⟩ else ⊥

theorem pad4_le_iff {n : ℕ} (x : Fin n → α) (k : ℕ) (z : α) :
    pad4 x k ≤ z ↔ ∀ h : 4 ≤ k ∧ k - 4 < n, x ⟨k - 4, h.2⟩ ≤ z := by
  unfold pad4
  split_ifs with h
  · exact ⟨fun hz _ => hz, fun hz => hz h⟩
  · exact ⟨fun _ h' => absurd h' h, fun _ => bot_le⟩

/-- Inside the line. -/
theorem pad4_of_mem {n : ℕ} (x : Fin n → α) (k : ℕ) (h : 4 ≤ k ∧ k - 4 < n) : pad4 x k = x ⟨k - 4, h.2⟩ :=
  dif_pos h

/-- In the first four places. -/
theorem pad4_of_lt {n : ℕ} (x : Fin n → α) (k : ℕ) (h : k < 4) : pad4 x k = ⊥ :=
  dif_neg (by omega)

/-- In the last four places, and beyond. -/
theorem pad4_of_ge {n : ℕ} (x : Fin n → α) (k : ℕ) (h : n + 4 ≤ k) : pad4 x k = ⊥ :=
  dif_neg (by omega)

/-! ## The two passes and the window -/

/-- The pass along a line: at position `c` the maximum of the entries `c - 4 … c + 4`, the bottom standing in
    for the entries beyond the ends. -/
def lineMax {n : ℕ} (x : Fin n → α) (c : ℕ) : α := max9 fun d => pad4 x (c + d.val)

/-- The 9 x 9 window of an image at `(r, c)` by two passes: along every row, then down the column `c` of the
    results. -/
def boxMax {m n : ℕ} (X : Fin m → Fin n → α) (r c : ℕ) : α :=
  max9 fun d => pad4 (fun i => lineMax (X i) c) (r + d.val)

/-- The image extended by four places of the bottom on all four sides. -/
def pad2 {m n : ℕ} (X : Fin m → Fin n → α) (r c : ℕ) : α := pad4 (fun i => pad4 (X i) c) r

theorem pad2_le_iff {m n : ℕ} (X : Fin m → Fin n → α) (r c : ℕ) (z : α) :
    pad2 X r c ≤ z ↔ ∀ (hr : 4 ≤ r ∧ r - 4 < m) (hc : 4 ≤ c ∧ c - 4 < n), X ⟨r - 4, hr.2⟩ ⟨c - 4, hc.2⟩ ≤ z := by
  unfold pad2
  rw [pad4_le_iff]
  exact forall_congr' fun hr => pad4_le_iff _ _ _

/-- The extended image by one test of both coordinates. -/
theorem pad2_eq {m n : ℕ} (X : Fin m → Fin n → α) (r c : ℕ) :
    pad2 X r c = if h : (4 ≤ r ∧ r - 4 < m) ∧ (4 ≤ c ∧ c - 4 < n) then X ⟨r - 4, h.1.2⟩ ⟨c - 4, h.2.2⟩ else ⊥ := by
  unfold pad2 pad4
  by_cases hr : 4 ≤ r ∧ r - 4 < m <;> by_cases hc : 4 ≤ c ∧ c - 4 < n <;> simp [hr, hc]

/-- The two passes lie below `z` exactly when all 81 entries of the window of the extended image do. -/
theorem boxMax_le_iff {m n : ℕ} (X : Fin m → Fin n → α) (r c : ℕ) (z : α) :
    boxMax X r c ≤ z ↔ ∀ dy dx : Fin 9, pad2 X (r + dy.val) (c + dx.val) ≤ z := by
  unfold boxMax lineMax
  rw [max9_le_iff]
  refine forall_congr' fun dy => ?_
  rw [pad4_le_iff]
  simp only [max9_le_iff, pad2_le_iff, pad4_le_iff]
  exact ⟨fun h dx hr hc => h hr dx hc, fun h hr dx hc => h dx hr hc⟩

/-- THE LAW: one left fold of `max` from the bottom whose terms are entries of the window of the extended
    image, every one of the 81 entries among them, is the two passes. -/
theorem foldl_eq_boxMax {ι : Type*} {m n : ℕ} (X : Fin m → Fin n → α) (r c : ℕ) (l : List ι) (t : ι → α)
    (hin : ∀ k ∈ l, ∃ dy dx : Fin 9, t k = pad2 X (r + dy.val) (c + dx.val))
    (hall : ∀ dy dx : Fin 9, ∃ k ∈ l, t k = pad2 X (r + dy.val) (c + dx.val)) :
    l.foldl (fun acc k => max acc (t k)) ⊥ = boxMax X r c := by
  refine eq_of_forall_ge_iff fun z => ?_
  rw [foldl_max_le_iff, boxMax_le_iff]
  constructor
  · rintro ⟨-, h⟩ dy dx
    obtain ⟨k, hk, e⟩ := hall dy dx
    exact e ▸ h k hk
  · intro h
    refine ⟨bot_le, fun k hk => ?_⟩
    obtain ⟨dy, dx, e⟩ := hin k hk
    exact e ▸ h dy dx

/-! ## The border value -/

open Idealize.ShloMosaic in
/-- The 32-bit word `0xFF800000`, with which both programs fill what lies beyond the image, is -inf: the bottom of
    the extended reals. -/
theorem neg_inf_word : Ideal.ofBits .f32 0xFF800000#32 = (⊥ : EReal) := by
  simp [Ideal.ofBits, Ideal.ieee]

/-! ## A batch of images -/

section Batch

open Idealize.ShloMosaic Idealize.ShloMosaic.ValueIdx

/-- Sixteen single-channel images of 1024 x 1024. -/
abbrev Batch : Shape := ⟨4, ![16, 1024, 1024, 1]⟩

/-- Image `b` of the batch: entry `(i, k)`. -/
def imgOf (x : Batch.Idx → EReal) (b : Fin 16) (i k : Fin 1024) : EReal := x (ix4 b i k (0 : Fin 1))

/-- THE RESULT both programs are compared with: every image of the batch replaced by its 9 x 9 windows. -/
noncomputable def dilated (x : Batch.Idx → EReal) : Batch.Idx → EReal :=
  fun j => boxMax (imgOf x (j 0)) (j 1).val (j 2).val

theorem dilated_apply (x : Batch.Idx → EReal) (b : Fin 16) (r c : Fin 1024) (w : Fin 1) :
    dilated x (ix4 b r c w) = boxMax (imgOf x b) r.val c.val := rfl

end Batch

end Cert.WindowMax
-- ==== Proof.KernelWindow.lean ====
/-
  The dilation kernel's output block read at an index, on the extended reals. With the input block seen as a
  1024 x 1024 image `X`, the first buffer's row `r` is row `r` of `X` extended by four places of -inf at either
  end, so the maximum of its nine shifted reads at column `c` is the pass along the row; the second buffer's
  column `c` is that pass extended by four places of -inf at either end, and the maximum of its nine shifted
  reads at row `r` is the 9 x 9 window of `X` at `(r, c)` by the two passes.
-/
import proofs.«112363_j11450382811764_1_alg».proof.Proof.KernelBlock
import proofs.«112363_j11450382811764_1_alg».proof.Proof.WindowMax
import Idealize.ShloMosaic.Lib.ValueIdx

set_option maxRecDepth 16384

noncomputable section

namespace Cert.KernelIdeal.Dilate

open Cert.KernelIdeal Cert.KernelIdeal.Gen Cert.WindowMax
open Idealize.ShloMosaic Idealize.ShloMosaic.TcCoe Idealize.ShloMosaic.ValueIdx

/-- A block [1, 1024, 1024, 1] as an image: entry `(i, j)`. -/
def img (x0 : Vec Ideal S1x1024x1024x1 .f32) (i j : Fin 1024) : EReal := x0 (ix4 (0 : Fin 1) i j (0 : Fin 1))

/-! ## The payloads at an index -/

theorem pay4_apply (x0 : Vec Ideal S1x1024x1024x1 .f32) (r c : Fin 1024) : k0_pay4 x0 (ix2 r c) = img x0 r c := by
  show shapeCast S1024x1024 (shapeCast S1024x1024 x0 _) _ (ix2 r c) = _
  rw [shapeCast_self]
  exact shapeCast_apply _ _ _ _ (by
    rw [Shape.rowMajor_val_four, Shape.rowMajor_val_two]
    show ((0 * 1024 + r.val) * 1024 + c.val) * 1 + 0 = r.val * 1024 + c.val
    omega)

theorem pay2_apply (x : S1024x4.Idx) : k0_pay2 (F := Ideal) x = (⊥ : EReal) := by
  show shapeCast S1024x4 (broadcast S1024x4 (Scalar.ofBits (F := Ideal) .f32 0xFF800000#32)) _ x = _
  rw [shapeCast_self]; exact neg_inf_word

theorem pay3_apply (x : S1024x4.Idx) : k0_pay3 (F := Ideal) x = (⊥ : EReal) := by
  show shapeCast S1024x4 (broadcast S1024x4 (Scalar.ofBits (F := Ideal) .f32 0xFF800000#32)) _ x = _
  rw [shapeCast_self]; exact neg_inf_word

theorem pay6_apply (x : S4x1024.Idx) : k0_pay6 (F := Ideal) x = (⊥ : EReal) := by
  show shapeCast S4x1024 (broadcast S4x1024 (Scalar.ofBits (F := Ideal) .f32 0xFF800000#32)) _ x = _
  rw [shapeCast_self]; exact neg_inf_word

theorem pay7_apply (x : S4x1024.Idx) : k0_pay7 (F := Ideal) x = (⊥ : EReal) := by
  show shapeCast S4x1024 (broadcast S4x1024 (Scalar.ofBits (F := Ideal) .f32 0xFF800000#32)) _ x = _
  rw [shapeCast_self]; exact neg_inf_word

theorem pay5_apply (v13 v14 v16 v18 v20 v22 v24 v26 : Vec Ideal S1024x1024 .f32) (j : S1024x1024.Idx) :
    k0_pay5 v13 v14 v16 v18 v20 v22 v24 v26 j
      = max (max (max (max (max (max (max (v13 j) (v14 j)) (v16 j)) (v18 j)) (v20 j)) (v22 j)) (v24 j)) (v26 j) := rfl

theorem pay9_apply (v41 v42 v44 v46 v48 v50 v52 v54 : Vec Ideal S1024x1024 .f32) (j : S1024x1024.Idx) :
    k0_pay9 v41 v42 v44 v46 v48 v50 v52 v54 j
      = max (max (max (max (max (max (max (v41 j) (v42 j)) (v44 j)) (v46 j)) (v48 j)) (v50 j)) (v52 j)) (v54 j) := rfl

theorem pay8_apply (v27 : FVec Ideal S1024x1024 .f32) (v28 : Vec Ideal S1024x1024 .f32) (j : S1024x1024.Idx) :
    k0_pay8 v27 v28 j = max (v27 j) (v28 j) := by
  show shapeCast S1024x1024 (maximumf v27 v28) _ j = _
  rw [shapeCast_self]; rfl

theorem pay1_apply (v55 : FVec Ideal S1024x1024 .f32) (v56 : Vec Ideal S1024x1024 .f32) (u : Fin 1) (r c : Fin 1024) (w : Fin 1) :
    k0_pay1 v55 v56 (ix4 u r c w) = max (v55 (ix2 r c)) (v56 (ix2 r c)) := by
  show shapeCast S1x1024x1024x1 (maximumf v55 v56) _ (ix4 u r c w) = _
  exact shapeCast_apply (maximumf v55 v56) _ (ix4 u r c w) (ix2 r c) (by
    rw [Shape.rowMajor_val_four, Shape.rowMajor_val_two]
    show r.val * 1024 + c.val = ((u.val * 1024 + r.val) * 1024 + c.val) * 1 + w.val
    have := u.isLt; have := w.isLt; omega)

/-- An index of a rank-two array lies in a unit-stride rectangle when each coordinate lies in its range. -/
theorem ix2_mem_unit {m n : ℕ} {off size : Fin 2 → ℕ} {inb : ∀ a, off a + size a ≤ (⟨2, ![m, n]⟩ : Shape).size a}
    (a : Fin m) (b : Fin n) (h0 : off 0 ≤ a.val ∧ a.val < off 0 + size 0) (h1 : off 1 ≤ b.val ∧ b.val < off 1 + size 1) :
    ix2 a b ∈ (Rect.unit (s := ⟨2, ![m, n]⟩) off size inb).set :=
  Rect.mem_set_unit.mpr (Fin.forall_fin_two.mpr ⟨h0, h1⟩)

/-! ## The first buffer: rows extended by -inf -/

/-- After its three writes, row `r` of the 1024 x 1032 buffer is row `r` of the image with four places of -inf at
    either end. -/
theorem rowBuffer_apply (x0 : Vec Ideal S1x1024x1024x1 .f32) (r : Fin 1024) (k : Fin 1032) :
    View.canon (rowPieces x0) (ix2 r k) = pad4 (img x0 r) k.val := by
  refine View.canon_apply_of_pieces (Val := Elt Ideal) (S := S1024x1032) (e := .f32)
    (fun y => pad4 (img x0 ⟨(y 0).val, idx2_lt0 y⟩) (y 1).val) (rowPieces x0) ?_ (ix2 r k) ?_
  · intro p hp x
    simp only [rowPieces, List.mem_cons, List.not_mem_nil, or_false] at hp
    rcases hp with rfl | rfl | rfl
    · obtain ⟨a, b, rfl⟩ : ∃ (a : Fin 1024) (b : Fin 1024), x = ix2 a b := ⟨x 0, x 1, eq_ix2 x⟩
      have h : 4 ≤ 4 + 1 * b.val ∧ 4 + 1 * b.val - 4 < 1024 := ⟨by omega, by have := b.isLt; omega⟩
      refine (pay4_apply x0 a b).trans ?_
      refine Eq.trans ?_ (pad4_of_mem (img x0 ⟨0 + 1 * a.val, by have := a.isLt; omega⟩) (4 + 1 * b.val) h).symm
      exact congrArg₂ (img x0) (Fin.ext (by show a.val = 0 + 1 * a.val; omega)) (Fin.ext (by show b.val = 4 + 1 * b.val - 4; omega))
    · refine (pay3_apply x).trans (pad4_of_ge _ _ ?_).symm
      show 1024 + 4 ≤ 1028 + 1 * (x 1).val
      omega
    · refine (pay2_apply x).trans (pad4_of_lt _ _ ?_).symm
      have h4 : (x 1).val < 4 := (x 1).isLt
      show 0 + 1 * (x 1).val < 4
      omega
  · have hr := r.isLt
    have hk := k.isLt
    by_cases h1 : k.val < 4
    · exact ⟨_, List.mem_cons_of_mem _ (List.mem_cons_of_mem _ (List.mem_singleton_self _)),
        ix2_mem_unit (inb := inb_S1024x1032_S1024x4_0_0) r k ⟨Nat.zero_le _, by show r.val < 0 + 1024; omega⟩ ⟨Nat.zero_le _, by show k.val < 0 + 4; omega⟩⟩
    · by_cases h2 : k.val < 1028
      · exact ⟨_, List.mem_cons_self,
          ix2_mem_unit (inb := inb_S1024x1032_S1024x1024_0_4) r k ⟨Nat.zero_le _, by show r.val < 0 + 1024; omega⟩ ⟨by show 4 ≤ k.val; omega, by show k.val < 4 + 1024; omega⟩⟩
      · exact ⟨_, List.mem_cons_of_mem _ List.mem_cons_self,
          ix2_mem_unit (inb := inb_S1024x1032_S1024x4_0_1028) r k ⟨Nat.zero_le _, by show r.val < 0 + 1024; omega⟩ ⟨by show 1028 ≤ k.val; omega, by show k.val < 1028 + 4; omega⟩⟩

/-- The read of the buffer from column `d`, at `(r, c)`: place `c + d` of the extended row. -/
theorem rowLoad_apply (x0 : Vec Ideal S1x1024x1024x1 .f32) (d : ℕ) (hd : d ≤ 8)
    (inb : ∀ a, (![0, d] : Fin 2 → ℕ) a + S1024x1024.size a ≤ S1024x1032.size a) (r c : Fin 1024) :
    rowLoad x0 d inb (ix2 r c) = pad4 (img x0 r) (c.val + d) := by
  have hc := c.isLt
  have e : (Rect.unit (s := S1024x1032) ![0, d] S1024x1024.size inb).toLoadRect.idx (ix2 r c)
      = ix2 r (⟨c.val + d, by omega⟩ : Fin 1032) := by
    funext a
    refine Fin.ext ?_
    match a with
    | ⟨0, _⟩ => show 0 + 1 * r.val = r.val; omega
    | ⟨1, _⟩ => show d + 1 * c.val = c.val + d; omega
  show View.canon (rowPieces x0) _ = _
  rw [e]
  exact rowBuffer_apply x0 r _

/-- The pass along the rows, at `(r, c)`. -/
theorem rowPass_apply (x0 : Vec Ideal S1x1024x1024x1 .f32) (r c : Fin 1024) :
    rowPass x0 (ix2 r c) = lineMax (img x0 r) c.val := by
  unfold rowPass
  rw [pay8_apply, pay5_apply,
    rowLoad_apply x0 0 (by omega) _ r c,
    rowLoad_apply x0 1 (by omega) _ r c,
    rowLoad_apply x0 2 (by omega) _ r c,
    rowLoad_apply x0 3 (by omega) _ r c,
    rowLoad_apply x0 4 (by omega) _ r c,
    rowLoad_apply x0 5 (by omega) _ r c,
    rowLoad_apply x0 6 (by omega) _ r c,
    rowLoad_apply x0 7 (by omega) _ r c,
    rowLoad_apply x0 8 (by omega) _ r c]
  rfl

/-! ## The second buffer: columns of the row pass extended by -inf -/

/-- After its three writes, column `c` of the 1032 x 1024 buffer is column `c` of the row pass with four places of
    -inf at either end. -/
theorem colBuffer_apply (x0 : Vec Ideal S1x1024x1024x1 .f32) (k : Fin 1032) (c : Fin 1024) :
    View.canon (colPieces x0) (ix2 k c) = pad4 (fun i => lineMax (img x0 i) c.val) k.val := by
  refine View.canon_apply_of_pieces (Val := Elt Ideal) (S := S1032x1024) (e := .f32)
    (fun y => pad4 (fun i => lineMax (img x0 i) (y 1).val) (y 0).val) (colPieces x0) ?_ (ix2 k c) ?_
  · intro p hp x
    simp only [colPieces, List.mem_cons, List.not_mem_nil, or_false] at hp
    rcases hp with rfl | rfl | rfl
    · obtain ⟨a, b, rfl⟩ : ∃ (a : Fin 1024) (b : Fin 1024), x = ix2 a b := ⟨x 0, x 1, eq_ix2 x⟩
      have h : 4 ≤ 4 + 1 * a.val ∧ 4 + 1 * a.val - 4 < 1024 := ⟨by omega, by have := a.isLt; omega⟩
      refine (rowPass_apply x0 a b).trans ?_
      refine Eq.trans ?_ (pad4_of_mem (fun i => lineMax (img x0 i) (0 + 1 * b.val)) (4 + 1 * a.val) h).symm
      exact congrArg₂ (fun (i : Fin 1024) (n : ℕ) => lineMax (img x0 i) n)
        (Fin.ext (by show a.val = 4 + 1 * a.val - 4; omega)) (by omega : b.val = 0 + 1 * b.val)
    · refine (pay7_apply x).trans (pad4_of_ge _ _ ?_).symm
      show 1024 + 4 ≤ 1028 + 1 * (x 0).val
      omega
    · refine (pay6_apply x).trans (pad4_of_lt _ _ ?_).symm
      have h4 : (x 0).val < 4 := (x 0).isLt
      show 0 + 1 * (x 0).val < 4
      omega
  · have hc := c.isLt
    have hk := k.isLt
    by_cases h1 : k.val < 4
    · exact ⟨_, List.mem_cons_of_mem _ (List.mem_cons_of_mem _ (List.mem_singleton_self _)),
        ix2_mem_unit (inb := inb_S1032x1024_S4x1024_0_0) k c ⟨Nat.zero_le _, by show k.val < 0 + 4; omega⟩ ⟨Nat.zero_le _, by show c.val < 0 + 1024; omega⟩⟩
    · by_cases h2 : k.val < 1028
      · exact ⟨_, List.mem_cons_self,
          ix2_mem_unit (inb := inb_S1032x1024_S1024x1024_4_0) k c ⟨by show 4 ≤ k.val; omega, by show k.val < 4 + 1024; omega⟩ ⟨Nat.zero_le _, by show c.val < 0 + 1024; omega⟩⟩
      · exact ⟨_, List.mem_cons_of_mem _ List.mem_cons_self,
          ix2_mem_unit (inb := inb_S1032x1024_S4x1024_1028_0) k c ⟨by show 1028 ≤ k.val; omega, by show k.val < 1028 + 4; omega⟩ ⟨Nat.zero_le _, by show c.val < 0 + 1024; omega⟩⟩

/-- The read of the buffer from row `d`, at `(r, c)`: place `r + d` of the extended column. -/
theorem colLoad_apply (x0 : Vec Ideal S1x1024x1024x1 .f32) (d : ℕ) (hd : d ≤ 8)
    (inb : ∀ a, (![d, 0] : Fin 2 → ℕ) a + S1024x1024.size a ≤ S1032x1024.size a) (r c : Fin 1024) :
    colLoad x0 d inb (ix2 r c) = pad4 (fun i => lineMax (img x0 i) c.val) (r.val + d) := by
  have hr := r.isLt
  have e : (Rect.unit (s := S1032x1024) ![d, 0] S1024x1024.size inb).toLoadRect.idx (ix2 r c)
      = ix2 (⟨r.val + d, by omega⟩ : Fin 1032) c := by
    funext a
    refine Fin.ext ?_
    match a with
    | ⟨0, _⟩ => show d + 1 * r.val = r.val + d; omega
    | ⟨1, _⟩ => show 0 + 1 * c.val = c.val; omega
  show View.canon (colPieces x0) _ = _
  rw [e]
  exact colBuffer_apply x0 _ c

/-! ## The block -/

/-- The output block at `(r, c)` is the 9 x 9 window of the input block's image there, by the two passes. -/
theorem block_apply (x0 : Vec Ideal S1x1024x1024x1 .f32) (u : Fin 1) (r c : Fin 1024) (w : Fin 1) :
    block x0 (ix4 u r c w) = boxMax (img x0) r.val c.val := by
  unfold block
  rw [pay1_apply, pay9_apply,
    colLoad_apply x0 0 (by omega) _ r c,
    colLoad_apply x0 1 (by omega) _ r c,
    colLoad_apply x0 2 (by omega) _ r c,
    colLoad_apply x0 3 (by omega) _ r c,
    colLoad_apply x0 4 (by omega) _ r c,
    colLoad_apply x0 5 (by omega) _ r c,
    colLoad_apply x0 6 (by omega) _ r c,
    colLoad_apply x0 7 (by omega) _ r c,
    colLoad_apply x0 8 (by omega) _ r c]
  rfl

end Cert.KernelIdeal.Dilate

end
-- ==== Proof.KernelArray.lean ====
/-
  From the kernel's blocks to its result array, on the extended reals. Grid point `t` stages image `t` of the
  batch as its input block and writes its output block back as image `t` of the result; the output block is the
  9 x 9 windows of the input block's image, so what point `t` writes back is image `t` of the dilated batch; the
  sixteen blocks are the sixteen images, so they cover the array, and the array ends as the dilated batch.
-/
import proofs.«112363_j11450382811764_1_alg».proof.Proof.Gen.KernelIdeal.Value
import proofs.«112363_j11450382811764_1_alg».proof.Proof.KernelWindow

set_option maxRecDepth 16384

noncomputable section

namespace Cert.KernelIdeal.Dilate

open Cert.KernelIdeal Cert.KernelIdeal.Gen Cert.WindowMax
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- One point, over plain arrays: if the input block is image `b` of a batch `X`, the output block at `y` is the
    dilated batch at the index `j` of image `b` with `y`'s row and column. -/
theorem block_eq_dilated (x0 : Vec Ideal S1x1024x1024x1 .f32) (X : S16x1024x1024x1.Idx → EReal) (b : Fin 16)
    (hx : ∀ i k : Fin 1024, x0 (ix4 (0 : Fin 1) i k (0 : Fin 1)) = X (ix4 b i k (0 : Fin 1)))
    (y : S1x1024x1024x1.Idx) (j : S16x1024x1024x1.Idx)
    (h0 : (j 0).val = b.val) (h1 : (j 1).val = (y 1).val) (h2 : (j 2).val = (y 2).val) :
    block x0 y = dilated X j := by
  obtain ⟨u, r, c, w, rfl⟩ : ∃ (u : Fin 1) (r c : Fin 1024) (w : Fin 1), y = ix4 u r c w :=
    ⟨y 0, y 1, y 2, y 3, eq_ix4 y⟩
  obtain ⟨b', r', c', w', rfl⟩ : ∃ (b' : Fin 16) (r' c' : Fin 1024) (w' : Fin 1), j = ix4 b' r' c' w' :=
    ⟨j 0, j 1, j 2, j 3, eq_ix4 j⟩
  obtain rfl : b' = b := Fin.ext h0
  obtain rfl : r' = r := Fin.ext h1
  obtain rfl : c' = c := Fin.ext h2
  rw [block_apply, dilated_apply]
  exact congrArg (fun X' : Fin 1024 → Fin 1024 → EReal => boxMax X' r'.val c'.val) (funext fun i => funext fun k => hx i k)

/-- The printed index maps, decided over the sixteen points: both windows sit at the same image, at block index
    zero on the other three axes, and the image's number is below sixteen. -/
theorem idx_facts : ∀ t : Fin cfg0.N, win0_0.index t (0 : Fin 4) = win0_1.index t (0 : Fin 4)
    ∧ win0_0.index t (1 : Fin 4) = 0 ∧ win0_0.index t (2 : Fin 4) = 0 ∧ win0_0.index t (3 : Fin 4) = 0
    ∧ win0_1.index t (1 : Fin 4) = 0 ∧ win0_1.index t (2 : Fin 4) = 0 ∧ win0_1.index t (3 : Fin 4) = 0
    ∧ win0_1.index t (0 : Fin 4) < 16 :=
  (by decide +kernel : ∀ t : Fin grid0.N, _)

/-- Every image is some point's. -/
theorem idx_onto : ∀ q : Fin 16, ∃ t : Fin cfg0.N, win0_1.index t = ![q.val, 0, 0, 0] :=
  (by decide +kernel : ∀ q : Fin 16, ∃ t : Fin grid0.N, win0_1.index t = ![q.val, 0, 0, 0])

/-- What point `t` writes back is its block of the dilated batch. -/
theorem flushed_eq (c : Dev nD) (t : Fin cfg0.N) :
    (dats m 0 c).flushed 1 t = ((cfg0.win 1).blk t).view.read (Elt Ideal) (dilated (V m c main_arg0)) := by
  rw [Cert.KernelIdeal.Value.flushed1_A, out_eq_block]
  obtain ⟨e0, e1, e2, e3, f1, f2, f3, hlt⟩ := idx_facts t
  funext y
  have hy0 : (y 0).val < 1 := (y 0).isLt
  show block (iblk m c 0 t) ((cfg0.win 1).xinj (grid0.coords t) y)
    = dilated (V m c main_arg0) (((cfg0.win 1).blk t).view.emb y)
  refine block_eq_dilated (iblk m c 0 t) (V m c main_arg0) ⟨win0_1.index t (0 : Fin 4), hlt⟩ (fun i k => ?_) _ _ ?_ ?_ ?_
  · show V m c main_arg0 (((cfg0.win 0).blk t).view.emb (ix4 (0 : Fin 1) i k (0 : Fin 1)))
      = V m c main_arg0 (ix4 (⟨win0_1.index t (0 : Fin 4), hlt⟩ : Fin 16) i k (0 : Fin 1))
    refine congrArg _ (funext fun a => Fin.ext ?_)
    match a with
    | ⟨0, _⟩ => show win0_0.index t (0 : Fin 4) * 1 + 1 * 0 = win0_1.index t (0 : Fin 4); omega
    | ⟨1, _⟩ => show win0_0.index t (1 : Fin 4) * 1024 + 1 * i.val = i.val; omega
    | ⟨2, _⟩ => show win0_0.index t (2 : Fin 4) * 1024 + 1 * k.val = k.val; omega
    | ⟨3, _⟩ => show win0_0.index t (3 : Fin 4) * 1 + 1 * 0 = 0; omega
  · show win0_1.index t (0 : Fin 4) * 1 + 1 * (y 0).val = win0_1.index t (0 : Fin 4); omega
  · show win0_1.index t (1 : Fin 4) * 1024 + 1 * (y 1).val = (y 1).val; omega
  · show win0_1.index t (2 : Fin 4) * 1024 + 1 * (y 2).val = (y 2).val; omega

/-- An index of the array is in point `t`'s block iff each coordinate is in the block's range on its axis. -/
theorem mem_blk (t : Fin cfg0.N) (i : S16x1024x1024x1.Idx) :
    i ∈ ((cfg0.win 1).blk t).view.set ↔ ∀ a : Fin 4, win0_1.index t a * S1x1024x1024x1.size a ≤ (i a).val
      ∧ (i a).val < win0_1.index t a * S1x1024x1024x1.size a + S1x1024x1024x1.size a := by
  show i ∈ ((View.whole main_v0).slice (win0_1.rect t)).set ↔ _
  rw [View.set_slice_whole, Rect.mem_set_unit]
  exact Iff.rfl

/-- Every index of the result array is in the block of the point of its image. -/
theorem covered (i : S16x1024x1024x1.Idx) :
    ∃ t : Fin cfg0.N, (cfg0.win 1).flush t = true ∧ i ∈ ((cfg0.win 1).blk t).view.set := by
  have hi0 : (i 0).val < 16 := (i 0).isLt
  have hi1 : (i 1).val < 1024 := (i 1).isLt
  have hi2 : (i 2).val < 1024 := (i 2).isLt
  have hi3 : (i 3).val < 1 := (i 3).isLt
  obtain ⟨t, ht⟩ := idx_onto ⟨(i 0).val, hi0⟩
  have q0 : win0_1.index t (0 : Fin 4) = (i 0).val := congrFun ht 0
  have q1 : win0_1.index t (1 : Fin 4) = 0 := congrFun ht 1
  have q2 : win0_1.index t (2 : Fin 4) = 0 := congrFun ht 2
  have q3 : win0_1.index t (3 : Fin 4) = 0 := congrFun ht 3
  refine ⟨t, flush0_1 t, ?_⟩
  rw [mem_blk]
  intro a
  match a with
  | ⟨0, _⟩ => show win0_1.index t (0 : Fin 4) * 1 ≤ (i 0).val ∧ (i 0).val < win0_1.index t (0 : Fin 4) * 1 + 1; omega
  | ⟨1, _⟩ => show win0_1.index t (1 : Fin 4) * 1024 ≤ (i 1).val ∧ (i 1).val < win0_1.index t (1 : Fin 4) * 1024 + 1024; omega
  | ⟨2, _⟩ => show win0_1.index t (2 : Fin 4) * 1024 ≤ (i 2).val ∧ (i 2).val < win0_1.index t (2 : Fin 4) * 1024 + 1024; omega
  | ⟨3, _⟩ => show win0_1.index t (3 : Fin 4) * 1 ≤ (i 3).val ∧ (i 3).val < win0_1.index t (3 : Fin 4) * 1 + 1; omega

/-- The result array after the run: the dilated batch. -/
theorem final (c : Dev nD) :
    (dats m 0 c).arrAt 1 cfg0.N = dilated (m ((c : Thread nD τ).loc main_arg0)) :=
  (dats m 0 c).arrAt_eq_of_cover 1 (dilated (V m c main_arg0)) (fun t _ => flushed_eq m c t) covered

/-- The kernel's run: it ends with the result array at the dilated batch, the argument array unchanged. -/
theorem run : θ_run defs (onTc (τ := τ) (main (F := Ideal))) ⟨m, fun _ => 0, ρ⟩ fun r => ∀ c : Dev nD,
      r.2.mem ((c : Thread nD τ).loc main_v0) = dilated (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩)
    (Cert.KernelIdeal.Value.run_blocks m ρ)

end Cert.KernelIdeal.Dilate

end
-- ==== Proof.ReferenceWindow.lean ====
/-
  The reference's windowed reduction read at an index, on the extended reals. At `(b, r, c, w)` it folds `max`, from
  -inf, over the 81 positions `(0, dy, dx, 0)` of a 1 x 9 x 9 x 1 window in row-major order; position `(dy, dx)` reads
  image `b` at `(r + dy - 4, c + dx - 4)` when that lies inside the image and -inf otherwise — entry
  `(r + dy, c + dx)` of the image extended by four places of -inf on every side. So it is the 9 x 9 window of
  image `b` at `(r, c)`, which the two passes compute as well.
-/
import proofs.«112363_j11450382811764_1_alg».proof.Proof.Gen.ReferenceIdeal.Read
import proofs.«112363_j11450382811764_1_alg».proof.Proof.WindowMax
import Idealize.ShloMosaic.Lib.ValueIdx

set_option maxRecDepth 16384

noncomputable section

namespace Cert.ReferenceIdeal.Dilate

open Cert.ReferenceIdeal Cert.ReferenceIdeal.Gen Cert.WindowMax
open Idealize.ShloMosaic Idealize.ShloMosaic.TcCoe Idealize.ShloMosaic.ValueIdx

/-- The window's own index set: 1 x 9 x 9 x 1. -/
abbrev Win : Shape := ⟨4, ![1, 9, 9, 1]⟩

/-- Two tests of one condition select one value. -/
theorem dite_congr' {α : Type} {p q : Prop} [Decidable p] [Decidable q] (hpq : p ↔ q) {f : p → α} {g : q → α} {z : α}
    (h : ∀ hp hq, f hp = g hq) : (if hp : p then f hp else z) = (if hq : q then g hq else z) := by
  by_cases hp : p
  · rw [dif_pos hp, dif_pos (hpq.mp hp)]; exact h _ _
  · rw [dif_neg hp, dif_neg (fun hq => hp (hpq.mpr hq))]

/-- One term of the fold, at window position `q`: the extended image at `(r + q 1, c + q 2)`. -/
theorem term_eq (x : S16x1024x1024x1.Idx → EReal) (b : Fin 16) (r c : Fin 1024) (w : Fin 1) (q : Win.Idx)
    {inst : Decidable (∀ a : Fin 4, (![0, 4, 4, 0] : Fin 4 → ℕ) a ≤ ((ix4 b r c w : S16x1024x1024x1.Idx) a).val * (![1, 1, 1, 1] : Fin 4 → ℕ) a + (q a).val
          ∧ ((ix4 b r c w : S16x1024x1024x1.Idx) a).val * (![1, 1, 1, 1] : Fin 4 → ℕ) a + (q a).val - (![0, 4, 4, 0] : Fin 4 → ℕ) a < S16x1024x1024x1.size a)} :
    @dite EReal (∀ a : Fin 4, (![0, 4, 4, 0] : Fin 4 → ℕ) a ≤ ((ix4 b r c w : S16x1024x1024x1.Idx) a).val * (![1, 1, 1, 1] : Fin 4 → ℕ) a + (q a).val
          ∧ ((ix4 b r c w : S16x1024x1024x1.Idx) a).val * (![1, 1, 1, 1] : Fin 4 → ℕ) a + (q a).val - (![0, 4, 4, 0] : Fin 4 → ℕ) a < S16x1024x1024x1.size a) inst
      (fun hin => x (fun a => ⟨((ix4 b r c w : S16x1024x1024x1.Idx) a).val * (![1, 1, 1, 1] : Fin 4 → ℕ) a + (q a).val - (![0, 4, 4, 0] : Fin 4 → ℕ) a, (hin a).2⟩))
      (fun _ => (⊥ : EReal))
      = pad2 (imgOf x b) (r.val + (q 1).val) (c.val + (q 2).val) := by
  have hq0 : (q 0).val < 1 := (q 0).isLt
  have hq3 : (q 3).val < 1 := (q 3).isLt
  have hb := b.isLt
  have hw := w.isLt
  rw [pad2_eq]
  refine dite_congr' ⟨fun h => ?_, fun h a => ?_⟩ fun hp hq => ?_
  · have h1 : 4 ≤ r.val * 1 + (q 1).val ∧ r.val * 1 + (q 1).val - 4 < 1024 := h 1
    have h2 : 4 ≤ c.val * 1 + (q 2).val ∧ c.val * 1 + (q 2).val - 4 < 1024 := h 2
    exact ⟨⟨by omega, by omega⟩, ⟨by omega, by omega⟩⟩
  · obtain ⟨⟨a1, a2⟩, ⟨b1, b2⟩⟩ := h
    match a with
    | ⟨0, _⟩ => show 0 ≤ b.val * 1 + (q 0).val ∧ b.val * 1 + (q 0).val - 0 < 16; omega
    | ⟨1, _⟩ => show 4 ≤ r.val * 1 + (q 1).val ∧ r.val * 1 + (q 1).val - 4 < 1024; omega
    | ⟨2, _⟩ => show 4 ≤ c.val * 1 + (q 2).val ∧ c.val * 1 + (q 2).val - 4 < 1024; omega
    | ⟨3, _⟩ => show 0 ≤ w.val * 1 + (q 3).val ∧ w.val * 1 + (q 3).val - 0 < 1; omega
  · refine congrArg x (funext fun a => Fin.ext ?_)
    match a with
    | ⟨0, _⟩ => show b.val * 1 + (q 0).val - 0 = b.val; omega
    | ⟨1, _⟩ => show r.val * 1 + (q 1).val - 4 = r.val + (q 1).val - 4; omega
    | ⟨2, _⟩ => show c.val * 1 + (q 2).val - 4 = c.val + (q 2).val - 4; omega
    | ⟨3, _⟩ => show w.val * 1 + (q 3).val - 0 = 0; omega

/-- The reference's result at `(b, r, c, w)`: the 9 x 9 window of image `b` at `(r, c)`. -/
theorem result_apply (x : (⟨S16x1024x1024x1, .f32⟩ : BufTy).Contents (Elt Ideal)) (b : Fin 16) (r c : Fin 1024) (w : Fin 1) :
    Read.val_main_v1 (F := Ideal) x (ix4 b r c w) = boxMax (imgOf x b) r.val c.val := by
  have hv : Read.val_main_v0 (F := Ideal) (Shape.Idx.first h_S_) = (⊥ : EReal) := by
    rw [Read.val_main_v0_apply, Read.val_main_cst_apply]; exact neg_inf_word
  unfold Read.val_main_v1 Host.reduceWindow
  dsimp only
  rw [hv]
  refine foldl_eq_boxMax (imgOf x b) r.val c.val _ _
    (fun n _ => ⟨(Win.rowMajor.symm n) 1, (Win.rowMajor.symm n) 2, term_eq x b r c w (Win.rowMajor.symm n)⟩)
    (fun dy dx => ⟨Win.rowMajor (ix4 (0 : Fin 1) dy dx (0 : Fin 1)), List.mem_finRange _, ?_⟩)
  have hq : Win.rowMajor.symm (Win.rowMajor (ix4 (0 : Fin 1) dy dx (0 : Fin 1))) = ix4 (0 : Fin 1) dy dx (0 : Fin 1) :=
    Equiv.symm_apply_apply _ _
  refine (term_eq x b r c w (Win.rowMajor.symm (Win.rowMajor (ix4 (0 : Fin 1) dy dx (0 : Fin 1))))).trans ?_
  rw [hq]

/-- The reference's result array is the dilated batch. -/
theorem result_eq (x : (⟨S16x1024x1024x1, .f32⟩ : BufTy).Contents (Elt Ideal)) :
    Read.val_main_v1 (F := Ideal) x = dilated x := by
  funext j
  obtain ⟨b, r, c, w, rfl⟩ : ∃ (b : Fin 16) (r c : Fin 1024) (w : Fin 1), j = ix4 b r c w :=
    ⟨j 0, j 1, j 2, j 3, eq_ix4 j⟩
  exact result_apply x b r c w

end Cert.ReferenceIdeal.Dilate

end
-- ==== Proof.lean ====
/-
  Grey-scale dilation by a 9 x 9 square: every entry of each of sixteen 1024 x 1024 images is replaced by the
  maximum of the image over the 9 x 9 window centred on it, entries beyond the image's edge counting as -inf.

  The kernel does it separably, one image per grid point: a pass along the rows (the image written into a buffer
  with four columns of -inf on either side, and the maximum taken of nine reads shifted by 0 … 8 columns), then a
  pass down the columns of that result (the same with four rows of -inf above and below). The reference does it in
  one step: a windowed reduction by `max` from -inf over a 1 x 9 x 9 x 1 window with four places of padding on both
  sides of the two image axes. On the extended reals both are the supremum of the same 81 entries of the image
  extended by -inf: `max` is associative and commutative and -inf is its identity, so the order and the grouping
  of the maxima do not matter (Proof/WindowMax.lean, `foldl_eq_boxMax`). No entry needs to be finite for this,
  and the precondition is never opened.

  Proof/KernelBlock.lean names what the kernel body leaves in its output block as one term of its input block;
  Proof/KernelWindow.lean reads that term at an index: the 9 x 9 window of the block's image; Proof/KernelArray.lean
  lays the sixteen blocks into the result array: the dilated batch; Proof/ReferenceWindow.lean reads the reference's
  windowed reduction at an index: the dilated batch again. The three frames are the generated frame runs (the
  reference's its generated run with the result dropped); the kernel's idealization rewrote nothing, so the
  preservation conjunct is `True`.
-/
import proofs.«112363_j11450382811764_1_alg».proof.Defs
import proofs.«112363_j11450382811764_1_alg».proof.Proof.Gen.Kernel
import proofs.«112363_j11450382811764_1_alg».proof.Proof.Gen.Kernel.Skeleton
import proofs.«112363_j11450382811764_1_alg».proof.Proof.Gen.Kernel.Launch
import proofs.«112363_j11450382811764_1_alg».proof.Proof.Gen.Kernel.Points
import proofs.«112363_j11450382811764_1_alg».proof.Proof.Gen.Kernel.Frame
import proofs.«112363_j11450382811764_1_alg».proof.Proof.Gen.KernelIdeal
import proofs.«112363_j11450382811764_1_alg».proof.Proof.Gen.KernelIdeal.Skeleton
import proofs.«112363_j11450382811764_1_alg».proof.Proof.Gen.KernelIdeal.Launch
import proofs.«112363_j11450382811764_1_alg».proof.Proof.Gen.KernelIdeal.Points
import proofs.«112363_j11450382811764_1_alg».proof.Proof.Gen.KernelIdeal.Frame
import proofs.«112363_j11450382811764_1_alg».proof.Proof.Gen.ReferenceIdeal
import proofs.«112363_j11450382811764_1_alg».proof.Proof.Gen.Pre_finite_inputs
import proofs.«112363_j11450382811764_1_alg».proof.Proof.Gen.KernelIdeal.Value
import proofs.«112363_j11450382811764_1_alg».proof.Proof.Gen.ReferenceIdeal.Run
import proofs.«112363_j11450382811764_1_alg».proof.Proof.Gen.ReferenceIdeal.Read
import proofs.«112363_j11450382811764_1_alg».proof.Proof.KernelArray
import proofs.«112363_j11450382811764_1_alg».proof.Proof.ReferenceWindow
import Idealize.ShloMosaic.Adequacy
import Idealize.ShloMosaic.Init

noncomputable section

namespace Cert.Proof

open Idealize.ShloMosaic Idealize.ShloMosaic.TcCoe Idealize.SL.Sem Cert.WindowMax

/-- The word-level kernel runs and leaves its argument as it found it. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Reading the kernel on the extended reals rewrote none of its operations. -/
theorem preserves : Cert.preserves_Kernel_KernelIdeal := trivial

/-- From arguments that agree, the kernel's result array and the reference's are both the dilated batch. -/
theorem algebraic : Cert.algebraic_KernelIdeal_ReferenceIdeal := by
  intro m ρ m' ρ' _ hagree
  refine ⟨_, Cert.KernelIdeal.Dilate.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v1_eq, Cert.ReferenceIdeal.Dilate.result_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
